-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S64x256 : Shape := ⟨2, ![64, 256]⟩
abbrev S64 : Shape := ⟨1, ![64]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  main_v18

def fn {F : FTy → Type} [FloatOps F] (main_arg0 : FVec F S100000x256 .f32) (main_arg1 : FVec F S64x256 .f32) (main_arg2 : FVec F S64 .f32) (main_arg3 : IVec S1600000 32) (main_arg4 : IVec S1600000 32) (main_arg5 : FVec F S1600000 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1600000 .f32 := Host.absf main_arg5
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_v13 main_v16
-- ==== Kernel.lean ====
abbrev S100000x256 : Shape := ⟨2, ![100000, 256]⟩
abbrev S64x256 : Shape := ⟨2, ![64, 256]⟩
abbrev S64 : Shape := ⟨1, ![64]⟩
abbrev S1600000 : Shape := ⟨1, ![1600000]⟩
abbrev S100000x64 : Shape := ⟨2, ![100000, 64]⟩
abbrev S5000x256 : Shape := ⟨2, ![5000, 256]⟩
abbrev S5000x64 : Shape := ⟨2, ![5000, 64]⟩
abbrev S256x64 : Shape := ⟨2, ![256, 64]⟩
abbrev S1x64 : Shape := ⟨2, ![1, 64]⟩
abbrev S1600000x1 : Shape := ⟨2, ![1600000, 1]⟩
abbrev S_ : Shape := ⟨0, ![]⟩
abbrev S1600000x64 : Shape := ⟨2, ![1600000, 64]⟩
abbrev S8000x64 : Shape := ⟨2, ![8000, 64]⟩
abbrev S8000x1 : Shape := ⟨2, ![8000, 1]⟩

abbrev nBuf : Space → Nat
  | .hbm => 50
  | .vmem => 24
  | .smem => 0
  | _ => 0

abbrev bufTy : (tb : Table) → Fin (tcTables nBuf tb) → BufTy
  | .hbm, ⟨0, _⟩ => ⟨S100000x256, .f32⟩
  | .hbm, ⟨1, _⟩ => ⟨S64x256, .f32⟩
  | .hbm, ⟨2, _⟩ => ⟨S64, .f32⟩
  | .hbm, ⟨3, _⟩ => ⟨S1600000, .i32⟩
  | .hbm, ⟨4, _⟩ => ⟨S1600000, .i32⟩
  | .hbm, ⟨5, _⟩ => ⟨S1600000, .f32⟩
  | .hbm, ⟨6, _⟩ => ⟨S100000x64, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S1600000x64, .f32⟩
  | .hbm, ⟨32, _⟩ => ⟨S_, .f32⟩
  | .hbm, ⟨33, _⟩ => ⟨S100000x64, .f32⟩
  | .hbm, ⟨34, _⟩ => ⟨S1600000x1, .i32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S64x256, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S8000x64, .f32⟩
  | .local _ .vmem, ⟨7, _⟩ => ⟨S8000x64, .f32⟩
  | .local _ .vmem, ⟨8, _⟩ => ⟨S8000x1, .f32⟩
  | .local _ .vmem, ⟨9, _⟩ => ⟨S8000x1, .f32⟩
  | .local _ .vmem, ⟨10, _⟩ => ⟨S8000x64, .f32⟩
  | .local _ .vmem, ⟨11, _⟩ => ⟨S8000x64, .f32⟩
  | .local _ .vmem, ⟨12, _⟩ => ⟨S8000x64, .f32⟩
  | .local _ .vmem, ⟨13, _⟩ => ⟨S8000x64, .f32⟩
  | .local _ .vmem, ⟨14, _⟩ => ⟨S8000x1, .f32⟩
  | .local _ .vmem, ⟨15, _⟩ => ⟨S8000x1, .f32⟩
  | .local _ .vmem, ⟨16, _⟩ => ⟨S8000x64, .f32⟩
  | .local _ .vmem, ⟨17, _⟩ => ⟨S8000x64, .f32⟩
  | .local _ .vmem, ⟨18, _⟩ => ⟨S8000x64, .f32⟩
  | .local _ .vmem, ⟨19, _⟩ => ⟨S8000x64, .f32⟩
  | .local _ .vmem, ⟨20, _⟩ => ⟨S8000x1, .f32⟩
  | .local _ .vmem, ⟨21, _⟩ => ⟨S8000x1, .f32⟩
  | .local _ .vmem, ⟨22, _⟩ => ⟨S8000x64, .f32⟩
  | .local _ .vmem, ⟨23, _⟩ => ⟨S8000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  transposes_S64x256_p1_0_S256x64 : S64x256.Transposes [1, 0] S256x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S1600000_S1600000x1 : S1600000.ShapeCasts S1600000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S100000x64 : S_.BroadcastsInDim S100000x64 (![] : Fin 0 → Fin S100000x64.rank)
  dot_S5000x256_S256x64_S5000x64_1_0_0_1_n_n_wf : DotDims.WF S5000x256 S256x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1600000x64.size a
  hwx1_0 : ∀ i : grid1.Coords, EltTy.bits .f32 = 32 ∨ (Rect.block (s := S1600000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1600000x1.size a
  hwx1_1 : ∀ i : grid1.Coords, EltTy.bits .f32 = 32 ∨ (Rect.block (s := S1600000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S1600000x64.size a
  hwx1_2 : ∀ i : grid1.Coords, EltTy.bits .f32 = 32 ∨ (Rect.block (s := S1600000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1600000x64.size a
  hwx2_0 : ∀ i : grid2.Coords, EltTy.bits .f32 = 32 ∨ (Rect.block (s := S1600000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x1.size a ≤ S1600000x1.size a
  hwx2_1 : ∀ i : grid2.Coords, EltTy.bits .f32 = 32 ∨ (Rect.block (s := S1600000x1) S8000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S1600000x64.size a
  hwx2_2 : ∀ i : grid2.Coords, EltTy.bits .f32 = 32 ∨ (Rect.block (s := S1600000x64) S8000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S1600000x64.size a
  hwx3_0 : ∀ i : grid3.Coords, EltTy.bits .f32 = 32 ∨ (Rect.block (s := S1600000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x1.size a ≤ S1600000x1.size a
  hwx3_1 : ∀ i : grid3.Coords, EltTy.bits .f32 = 32 ∨ (Rect.block (s := S1600000x1) S8000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x64.size a ≤ S1600000x64.size a
  hwx3_2 : ∀ i : grid3.Coords, EltTy.bits .f32 = 32 ∨ (Rect.block (s := S1600000x64) S8000x64.size (cc3_transform_2 i) (hinb3_2 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S8000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S8000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v30) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S8000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S8000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S64x256 : Shape := ⟨2, ![64, 256]⟩
abbrev S64 : Shape := ⟨1, ![64]⟩
abbrev S1600000 : Shape := ⟨1, ![1600000]⟩
abbrev S256x64 : Shape := ⟨2, ![256, 64]⟩
abbrev S100000x64 : Shape := ⟨2, ![100000, 64]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩

abbrev nBuf : Space → Nat
  | .hbm => 59
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S64x256, .f32⟩
  | .hbm, ⟨2, _⟩ => ⟨S64, .f32⟩
  | .hbm, ⟨3, _⟩ => ⟨S1600000, .i32⟩
  | .hbm, ⟨4, _⟩ => ⟨S1600000, .i32⟩
  | .hbm, ⟨5, _⟩ => ⟨S1600000, .f32⟩
  | .hbm, ⟨6, _⟩ => ⟨S256x64, .f32⟩
  | .hbm, ⟨7, _⟩ => ⟨S100000x64, .f32⟩
  | .hbm, ⟨8, _⟩ => ⟨S1x64, .f32⟩
  | .hbm, ⟨9, _⟩ => ⟨S100000x64, .f32⟩
  | .hbm, ⟨10, _⟩ => ⟨S100000x64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S1600000x1, .f32⟩
  | .hbm, ⟨21, _⟩ => ⟨S1600000x64, .f32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S1600000x1, .f32⟩
  | .hbm, ⟨37, _⟩ => ⟨S1600000x64, .f32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S1600000x1, .f32⟩
  | .hbm, ⟨53, _⟩ => ⟨S1600000x64, .f32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]

class Facts₀ : Prop where
  transposes_S64x256_S256x64_1_0 : S64x256.Transposes [1, 0] S256x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run with its result array named.

  The program is four kernel regions separated by stretches of host operations.  The buffer contents at the segment
  boundaries form a fold from the launch memory: a region replaces each of its arrays by what its write-backs leave,
  a host stretch applies its operations in order.  Every weakly fair execution terminates with every unscoped buffer
  at the last boundary's contents; read at the result buffer this names the result, and read at the argument buffers
  it gives back the launch contents (no region and no host operation writes an argument).
-/
import proofs.«116419_j90022514524541_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the six argument arrays as launched. -/
theorem run : θ_run defs (onTc (τ := τ) (main (F := F))) ⟨m, fun _ => 0, ρ⟩ (fun r => ∀ c : Dev nD,
      r.2.mem ((c.tc : Thread nD τ).loc main_v34) = W8 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v34 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Named

end
-- ==== Proof.Spec.lean ====
/-
  The two array-level functions of a graph convolution, index by index on the extended reals.

  `linear x W b` is the dense layer  h(i, j) = ∑ₖ x(i, k) · W(j, k) + b(j)  of 100000 nodes with 256 input and 64
  output features (the weight matrix is stored output-major, so the product contracts the LAST axis of both).
  `weighted g w` multiplies row `e` of a [1600000, 64] array of gathered rows by the single entry of row `e` of a
  [1600000, 1] column of edge weights.
-/
import Idealize.ShloMosaic.PureOps.Ideal
import Idealize.ShloMosaic.Lib.ValueIdx

open scoped BigOperators

noncomputable section

namespace Cert.GraphConv

open Idealize.ShloMosaic Idealize.ShloMosaic.ValueIdx

/-- The dense layer: entry `(i, j)` is the inner product of row `i` of `x` with row `j` of `W`, plus `b(j)`. -/
def linear (x : (⟨2, ![100000, 256]⟩ : Shape).Idx → EReal) (W : (⟨2, ![64, 256]⟩ : Shape).Idx → EReal)
    (b : (⟨1, ![64]⟩ : Shape).Idx → EReal) : (⟨2, ![100000, 64]⟩ : Shape).Idx → EReal :=
  fun i => (∑ k : Fin 256, x (ix2 (i 0) k) * W (ix2 (i 1) k)) + b (ix1 (i 1))

/-- The edge messages: entry `(e, j)` is the gathered entry `g(e, j)` times edge `e`'s weight `w(e, 0)`. -/
def weighted (g : (⟨2, ![1600000, 64]⟩ : Shape).Idx → EReal) (w : (⟨2, ![1600000, 1]⟩ : Shape).Idx → EReal) :
    (⟨2, ![1600000, 64]⟩ : Shape).Idx → EReal :=
  fun i => g i * w (ix2 (i 0) (0 : Fin 1))

end Cert.GraphConv

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.LinearBody.lean ====
/-
  The first region's body at one entry of its result block.

  The body holds a [5000, 256] block `x` of node features, the [64, 256] weight matrix `W` and the [64] bias `b`. It
  narrows `x` and `W` to bf16 (the identity on the extended reals), transposes `W` to [256, 64], multiplies the two on
  the matrix unit into a zero accumulator — the plain product, contracting axis 1 of the left operand with axis 0 of
  the right one —, casts the bias to a [1, 64] row and broadcasts the row over the 5000 rows, and adds. So entry
  `(p, q)` of what it stores is  ∑ₖ x(p, k) · W(q, k) + b(q):  the transpose's entry `(k, q)` is `W(q, k)`, and the
  broadcast row's entry `(p, q)` is the bias at `q`.
-/
import proofs.«116419_j90022514524541_2_alg».proof.Proof.Gen.KernelIdeal.Skeleton
import proofs.«116419_j90022514524541_2_alg».proof.Proof.LibMatmul
import Idealize.ShloMosaic.Lib.ValueLayout

open scoped BigOperators

noncomputable section

namespace Cert.KernelIdeal.LinearRegion

open Cert.KernelIdeal Cert.KernelIdeal.Gen Idealize.ShloMosaic Idealize.ShloMosaic.ValueIdx

/-- The body's dimension numbers are those of the plain product of a [5000, 256] by a [256, 64] matrix: the same
    lists, and the side conditions are propositions. -/
theorem dot_eq_plain : dot_S5000x256_S256x64_S5000x64_1_0_0_1_n_n = DotDims.plain 5000 256 64 := rfl

/-- Entry `(p, q)` of what the body stores: row `p` of the feature block against row `q` of the weights, plus the
    bias at `q`. -/
theorem body_apply (x : Vec Ideal S5000x256 .f32) (W : Vec Ideal S64x256 .f32) (b : Vec Ideal S64 .f32)
    (p : Fin 5000) (q : Fin 64) :
    k0_pay1 (F := Ideal) x W b (ix2 p q) = (∑ k : Fin 256, x (ix2 p k) * W (ix2 q k)) + b (ix1 q) := by
  unfold k0_pay1
  -- the sum of the product and of the broadcast bias, read at `(p, q)`
  show matmul (F := Ideal) dot_S5000x256_S256x64_S5000x64_1_0_0_1_n_n none (truncf .bf16 x bitsLt_bf16_f32)
        (transpose S256x64 [1, 0] (truncf .bf16 W bitsLt_bf16_f32) transposes_S64x256_p1_0_S256x64)
        (constant S5000x64 .f32 0x00000000#32) (ix2 p q)
      + broadcastTo S5000x64 (shapeCast S1x64 b shapeCasts_S64_S1x64) broadcasts_S1x64_S5000x64 (ix2 p q) = _
  rw [dot_eq_plain]
  refine congrArg₂ (· + ·) ?_ ?_
  · -- the plain product into zero is the sum over the contracted axis; the transposed weights at `(k, q)` are `W(q, k)`
    refine (Cert.MatOps.matmul_plain_zero_apply none _ _ p q).trans ?_
    refine Finset.sum_congr rfl fun k _ => ?_
    exact congrArg (x (ix2 p k) * ·) (Cert.MatOps.transpose10_apply _ _ k q)
  · -- the one row broadcast over the rows, then the row as the bias vector
    refine (broadcastTo_1b_ab_apply _ _ p q).trans ?_
    exact shapeCast_a_1a_apply b _ 0 q

end Cert.KernelIdeal.LinearRegion

end
-- ==== Proof.LinearArray.lean ====
/-
  The first region's result array: the dense layer of the arrays the region finds.

  The region runs over 20 points; point `t` stages rows 5000·t … 5000·t + 4999 of the node features, the whole weight
  matrix and the whole bias, and writes back rows 5000·t … 5000·t + 4999 of the result.  The blocks written back tile the
  result array, so after the last point the array is one function of the three input arrays.
-/
import proofs.«116419_j90022514524541_2_alg».proof.Proof.Gen.KernelIdeal.Frame
import proofs.«116419_j90022514524541_2_alg».proof.Proof.Spec
import proofs.«116419_j90022514524541_2_alg».proof.Proof.LinearBody
import Idealize.ShloMosaic.Lib.Pipeline.Value

set_option maxRecDepth 16384

open scoped BigOperators

noncomputable section

namespace Cert.KernelIdeal.LinearRegion

open Cert.KernelIdeal Cert.KernelIdeal.Gen Idealize.ShloMosaic Idealize.ShloMosaic.TcCoe Idealize.SL.Sem
open Idealize.ShloMosaic.ValueIdx
open Idealize.ShloMosaic.Pipeline (Dat)

/-! ## The body loads and stores its whole buffers: offsets zero on every axis -/

theorem zero_offsets2 : (![0, 0] : Fin 2 → Nat) = fun _ => 0 := funext fun a => by fin_cases a <;> rfl
theorem zero_offsets1 : (![0] : Fin 1 → Nat) = fun _ => 0 := funext fun a => by fin_cases a <;> rfl

/-! ## Where each window's block sits at point `t` -/

/-- The block indices, decided over the 20 points: the features' and the result's block is `(t, 0)`, the weights'
    `(0, 0)`, the bias's `(0)`. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-! ## The two functions at an index -/

/-- Entry `j` of what the body stores: row `j 0` of the feature block against row `j 1` of the weights, plus the
    bias at `j 1`. -/
theorem body_block_apply (x : Vec Ideal S5000x256 .f32) (W : Vec Ideal S64x256 .f32) (b : Vec Ideal S64 .f32)
    (j : S5000x64.Idx) :
    k0_pay1 (F := Ideal) x W b j = (∑ k : Fin 256, x (ix2 (j 0) k) * W (ix2 (j 1) k)) + b (ix1 (j 1)) := by
  obtain ⟨p, q, rfl⟩ : ∃ (p : Fin 5000) (q : Fin 64), j = ix2 p q := ⟨j 0, j 1, eq_ix2 j⟩
  exact body_apply x W b p q

/-- The dense layer at an index. -/
theorem linear_apply (x : S100000x256.Idx → EReal) (W : S64x256.Idx → EReal) (b : S64.Idx → EReal) (i : S100000x64.Idx) :
    Cert.GraphConv.linear x W b i = (∑ k : Fin 256, x (ix2 (i 0) k) * W (ix2 (i 1) k)) + b (ix1 (i 1)) := rfl

section Blocks

variable (V : (c : Dev nD) → (b : Ref sig .tc) → Buf (Elt Ideal) ((c : Thread nD τ).loc b))

/-! ## The staged blocks as entries of the arrays

An entry of a block sits in its array, on each axis, at the block index times the block's extent plus the entry's own
coordinate. -/

/-- The staged feature block at point `t`: its row `p` is row `5000·t + p` of the feature array. -/
theorem features_block (c : Dev nD) (t : Fin cfg0.N) (p : Fin 5000) (k : Fin 256) (r : Fin 100000)
    (hr : r.val = t.val * 5000 + p.val) :
    iblk0 V c 0 t (ix2 p k) = V c main_arg0 (ix2 r k) := by
  obtain ⟨e00, e01, -⟩ := block_indices t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 256 + 1 * k.val = k.val; omega

/-- The staged weights at every point are the whole weight matrix. -/
theorem weights_block (c : Dev nD) (t : Fin cfg0.N) (q : Fin 64) (k : Fin 256) (q' : Fin 64) (hq : q'.val = q.val) :
    iblk0 V c 1 t (ix2 q k) = V c main_arg1 (ix2 q' k) := by
  obtain ⟨-, -, e10, e11, -⟩ := block_indices t
  show V c main_arg1 (((cfg0.win 1).blk t).view.emb (ix2 q k)) = V c main_arg1 (ix2 q' k)
  refine congrArg (V c main_arg1) (funext fun a => Fin.ext ?_)
  match a with
  | ⟨0, _⟩ => show win0_1.index t (0 : Fin 2) * 64 + 1 * q.val = q'.val; omega
  | ⟨1, _⟩ => show win0_1.index t (1 : Fin 2) * 256 + 1 * k.val = k.val; omega

/-- The staged bias at every point is the whole bias vector. -/
theorem bias_block (c : Dev nD) (t : Fin cfg0.N) (q : Fin 64) (q' : Fin 64) (hq : q'.val = q.val) :
    iblk0 V c 2 t (ix1 q) = V c main_arg2 (ix1 q') := by
  obtain ⟨-, -, -, -, e20, -⟩ := block_indices t
  show V c main_arg2 (((cfg0.win 2).blk t).view.emb (ix1 q)) = V c main_arg2 (ix1 q')
  refine congrArg (V c main_arg2) (funext fun a => Fin.ext ?_)
  match a with
  | ⟨0, _⟩ => show win0_2.index t (0 : Fin 1) * 64 + 1 * q.val = q'.val; omega

/-! ## What a point writes back -/

/-- What point `t` writes back is block `t` of the dense layer of the three arrays as the region finds them: the body's
    one store covers its buffer, its loads read the whole staged blocks, and entry `(p, q)` of the block is entry
    `(5000·t + p, q)` of the array, whose feature row is row `p` of the staged block. -/
theorem flushed_eq (c : Dev nD) (t : Fin cfg0.N) :
    (dat0 V c).flushed 3 t = ((cfg0.win 3).blk t).view.read (Elt Ideal)
      (Cert.GraphConv.linear (V c main_arg0) (V c main_arg1) (V c main_arg2)) := by
  show (cfg0.win 3).cut (grid0.coords t) ((dat0 V c).after 3 t) = _
  rw [after0_3]
  unfold out0_3
  rw [View.canon_unit_zero zero_offsets2]
  simp only [View.ld_unit_zero (S := S5000x256) zero_offsets2, View.ld_unit_zero (S := S64x256) zero_offsets2,
    View.ld_unit_zero (S := S64) zero_offsets1]
  obtain ⟨-, -, -, -, -, e30, e31⟩ := block_indices t
  funext j
  refine (body_block_apply _ _ _ j).trans ?_
  show _ = Cert.GraphConv.linear (V c main_arg0) (V c main_arg1) (V c main_arg2) (((cfg0.win 3).blk t).view.emb j)
  refine Eq.trans ?_ (linear_apply _ _ _ _).symm
  -- the entry's two coordinates in the array
  have h0 : ((((cfg0.win 3).blk t).view.emb j) 0).val = t.val * 5000 + (j 0).val := by
    show win0_3.index t (0 : Fin 2) * 5000 + 1 * (j 0).val = t.val * 5000 + (j 0).val; omega
  have h1 : ((((cfg0.win 3).blk t).view.emb j) 1).val = (j 1).val := by
    show win0_3.index t (1 : Fin 2) * 64 + 1 * (j 1).val = (j 1).val; omega
  refine congrArg₂ (· + ·) (Finset.sum_congr rfl fun k _ => congrArg₂ (· * ·) ?_ ?_) ?_
  · exact features_block V c t (j 0) k _ h0
  · exact weights_block V c t (j 1) k _ h1
  · exact bias_block V c t (j 1) _ h1

end Blocks

/-! ## The blocks written back tile the result array -/

/-- An index of the result array is in point `t`'s block iff each coordinate is in the block's range on its axis. -/
theorem mem_block (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v0).slice (win0_3.rect t)).set ↔ _
  rw [View.set_slice_whole, Rect.mem_set_unit]
  exact Iff.rfl

/-- Every index of the result array is in a block that is written back: row `r` is in the block of point `r / 5000`. -/
theorem cover (i : S100000x64.Idx) :
    ∃ t : Fin cfg0.N, (cfg0.win 3).flush t = true ∧ i ∈ ((cfg0.win 3).blk t).view.set := by
  have hi0 : (i 0).val < 100000 := idx2_lt0 i
  have hi1 : (i 1).val < 64 := idx2_lt1 i
  obtain ⟨t, ht⟩ : ∃ t : Fin cfg0.N, t.val = (i 0).val / 5000 :=
    ⟨⟨(i 0).val / 5000, by show (i 0).val / 5000 < 20; omega⟩, rfl⟩
  obtain ⟨-, -, -, -, -, e30, e31⟩ := block_indices t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-! ## The array after the last point -/

/-- After the region's last point its result array is the dense layer of the node features, the weights and the bias as
    the region found them. -/
theorem array (V : (c : Dev nD) → (b : Ref sig .tc) → Buf (Elt Ideal) ((c : Thread nD τ).loc b)) (c : Dev nD) :
    (dat0 V c).arrAt 3 cfg0.N = Cert.GraphConv.linear (V c main_arg0) (V c main_arg1) (V c main_arg2) :=
  (dat0 V c).arrAt_eq_of_cover 3 (Cert.GraphConv.linear (V c main_arg0) (V c main_arg1) (V c main_arg2))
    (fun t _ => flushed_eq V c t) cover

end Cert.KernelIdeal.LinearRegion

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.ProductBody.lean ====
/-
  The body of the three edge-message regions, read at one entry.

  The body casts each staged block to its own shape (the identity), copies the [8000, 1] weight column along the 64
  lanes and multiplies: entry (p, q) of the result is entry (p, q) of the gathered block times entry (p, 0) of the
  weight column.  The three regions run the same body.
-/
import proofs.«116419_j90022514524541_2_alg».proof.Proof.Gen.KernelIdeal.Skeleton
import proofs.«116419_j90022514524541_2_alg».proof.Proof.LibKeepdims
import Idealize.ShloMosaic.Lib.Pipeline.Value
import Idealize.ShloMosaic.Lib.ValueIdx

noncomputable section

namespace Cert.KernelIdeal.ProductRegion

open Cert.KernelIdeal Cert.KernelIdeal.Gen Idealize.ShloMosaic Idealize.ShloMosaic.ValueIdx
open Idealize.ShloMosaic.Keepdims

/-- A block times a column copied along the lanes, entry by entry: row `p` of the block is scaled by the column's
    entry of row `p`. -/
theorem scaled_rows_apply (x0 : Vec Ideal S8000x64 .f32) (x1 : Vec Ideal S8000x1 .f32) (p : Fin 8000) (q : Fin 64) :
    mulf (F := Ideal) (φ := .f32) (shapeCast S8000x64 x0 shapeCasts_S8000x64_S8000x64)
        (broadcastTo S8000x64 (shapeCast S8000x1 x1 shapeCasts_S8000x1_S8000x1) broadcasts_S8000x1_S8000x64) (ix2 p q)
      = x0 (ix2 p q) * x1 (ix2 p (0 : Fin 1)) := by
  rw [shapeCast_self, shapeCast_self]
  show x0 (ix2 p q) * broadcastTo S8000x64 x1 broadcasts_S8000x1_S8000x64 (ix2 p q) = _
  exact congrArg (fun z => x0 (ix2 p q) * z) (broadcastTo_a1_ab_apply x1 broadcasts_S8000x1_S8000x64 p q (0 : Fin 1))

/-- The first round's body at entry `(p, q)`. -/
theorem k1_pay1_apply (x0 : Vec Ideal S8000x64 .f32) (x1 : Vec Ideal S8000x1 .f32) (p : Fin 8000) (q : Fin 64) :
    k1_pay1 (F := Ideal) x0 x1 (ix2 p q) = x0 (ix2 p q) * x1 (ix2 p (0 : Fin 1)) := by
  unfold k1_pay1
  exact scaled_rows_apply x0 x1 p q

/-- The second round's body at entry `(p, q)`. -/
theorem k2_pay1_apply (x0 : Vec Ideal S8000x64 .f32) (x1 : Vec Ideal S8000x1 .f32) (p : Fin 8000) (q : Fin 64) :
    k2_pay1 (F := Ideal) x0 x1 (ix2 p q) = x0 (ix2 p q) * x1 (ix2 p (0 : Fin 1)) := by
  unfold k2_pay1
  exact scaled_rows_apply x0 x1 p q

/-- The third round's body at entry `(p, q)`. -/
theorem k3_pay1_apply (x0 : Vec Ideal S8000x64 .f32) (x1 : Vec Ideal S8000x1 .f32) (p : Fin 8000) (q : Fin 64) :
    k3_pay1 (F := Ideal) x0 x1 (ix2 p q) = x0 (ix2 p q) * x1 (ix2 p (0 : Fin 1)) := by
  unfold k3_pay1
  exact scaled_rows_apply x0 x1 p q

end Cert.KernelIdeal.ProductRegion

end
-- ==== Proof.ProductArray.lean ====
/-
  The result arrays of the three edge-message regions: the gathered rows times the edge weights.

  Each region runs over 200 points; point `t` stages rows 8000·t … 8000·t + 7999 of the gathered array and of the weight
  column and writes back the same rows of the result.  The blocks written back tile the result array, so after the last
  point the array is one function of the two input arrays.
-/
import proofs.«116419_j90022514524541_2_alg».proof.Proof.Gen.KernelIdeal.Frame
import proofs.«116419_j90022514524541_2_alg».proof.Proof.Spec
import proofs.«116419_j90022514524541_2_alg».proof.Proof.ProductBody
import Idealize.ShloMosaic.Lib.Pipeline.Value

set_option maxRecDepth 16384

noncomputable section

namespace Cert.KernelIdeal.ProductRegion

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

/-- The zero offsets of a whole-buffer access, however they are spelt. -/
theorem zero_offsets : (![0, 0] : Fin 2 → Nat) = fun _ => 0 := funext fun a => by fin_cases a <;> rfl

/-- The product array at an entry `i`, from the two factors read where `i` says: the gathered array at `i` itself and the
    weight column at `i`'s row. -/
theorem weighted_at (g : S1600000x64.Idx → EReal) (w : S1600000x1.Idx → EReal) (i0 i : S1600000x64.Idx)
    (i1 : S1600000x1.Idx) (h0 : i0 = i) (h1 : i1 = ix2 (i 0) (0 : Fin 1)) :
    g i0 * w i1 = Cert.GraphConv.weighted g w i := by
  subst h0 h1; rfl

/-! ## Round 1: the blocks, the cover, the array -/

/-- The block indices at point `t`, decided over the 200 points: all three windows are at block `(t, 0)`. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The body at an entry `j` of the block: the gathered entry times the weight of `j`'s row. -/
theorem k1_pay1_at (x0 : Vec Ideal S8000x64 .f32) (x1 : Vec Ideal S8000x1 .f32) (j : S8000x64.Idx) :
    k1_pay1 (F := Ideal) x0 x1 j = x0 j * x1 (ix2 (j 0) (0 : Fin 1)) := by
  obtain ⟨p, q, rfl⟩ : ∃ (p : Fin 8000) (q : Fin 64), j = ix2 p q := ⟨j 0, j 1, eq_ix2 j⟩
  exact k1_pay1_apply x0 x1 p q

/-- What point `t` writes back is block `t` of the product array: entry `(p, q)` of the block is entry
    `(8000·t + p, q)` of the gathered array times entry `(8000·t + p, 0)` of the weight column. -/
theorem flushed1_eq (t : Fin cfg1.N) :
    (dat1 V c).flushed 2 t
      = ((cfg1.win 2).blk t).view.read (Elt Ideal) (Cert.GraphConv.weighted (V c main_v8) (V c main_v1)) := by
  show (cfg1.win 2).cut (grid1.coords t) ((dat1 V c).after 2 t) = _
  rw [after1_2]
  unfold out1_2
  rw [View.canon_unit_zero zero_offsets]
  simp only [View.ld_unit_zero (S := S8000x64) zero_offsets, View.ld_unit_zero (S := S8000x1) zero_offsets]
  obtain ⟨e00, e01, e10, e11, e20, e21⟩ := block_index1 t
  funext j
  show k1_pay1 (F := Ideal) (iblk1 V c 0 t) (iblk1 V c 1 t) j
      = Cert.GraphConv.weighted (V c main_v8) (V c main_v1) (((cfg1.win 2).blk t).view.emb j)
  refine (k1_pay1_at _ _ j).trans ?_
  -- the gathered block and the result block sit at the same rows and lanes
  have h0 : ((cfg1.win 0).blk t).view.emb j = ((cfg1.win 2).blk t).view.emb j := by
    funext a; apply Fin.ext
    match a with
    | ⟨0, _⟩ =>
      show win1_0.index t (0 : Fin 2) * 8000 + 1 * (j 0).val = win1_2.index t (0 : Fin 2) * 8000 + 1 * (j 0).val
      omega
    | ⟨1, _⟩ =>
      show win1_0.index t (1 : Fin 2) * 64 + 1 * (j 1).val = win1_2.index t (1 : Fin 2) * 64 + 1 * (j 1).val
      omega
  -- the weight block sits at the same rows, and its one lane is lane 0 of the column
  have h1 : ((cfg1.win 1).blk t).view.emb (ix2 (j 0) (0 : Fin 1))
      = ix2 ((((cfg1.win 2).blk t).view.emb j) 0) (0 : Fin 1) := by
    funext a; apply Fin.ext
    match a with
    | ⟨0, _⟩ =>
      show win1_1.index t (0 : Fin 2) * 8000 + 1 * (j 0).val = win1_2.index t (0 : Fin 2) * 8000 + 1 * (j 0).val
      omega
    | ⟨1, _⟩ =>
      show win1_1.index t (1 : Fin 2) * 1 + 1 * 0 = 0
      omega
  exact weighted_at (V c main_v8) (V c main_v1) (((cfg1.win 0).blk t).view.emb j) (((cfg1.win 2).blk t).view.emb j)
    (((cfg1.win 1).blk t).view.emb (ix2 (j 0) (0 : Fin 1))) h0 h1

/-- An entry of the result array is in point `t`'s block iff each coordinate is in the block's range on its axis. -/
theorem mem_block1 (t : Fin cfg1.N) (i : S1600000x64.Idx) :
    i ∈ ((cfg1.win 2).blk t).view.set
      ↔ ∀ a : Fin 2, win1_2.index t a * S8000x64.size a ≤ (i a).val
          ∧ (i a).val < win1_2.index t a * S8000x64.size a + S8000x64.size a := by
  show i ∈ ((View.whole main_v9).slice (win1_2.rect t)).set ↔ _
  rw [View.set_slice_whole, Rect.mem_set_unit]
  exact Iff.rfl

/-- Every entry of the result array is written back: row `r` by point `r / 8000`. -/
theorem covered1 (i : S1600000x64.Idx) :
    ∃ t : Fin cfg1.N, (cfg1.win 2).flush t = true ∧ i ∈ ((cfg1.win 2).blk t).view.set := by
  have hi0 : (i 0).val < 1600000 := (i 0).isLt
  have hi1 : (i 1).val < 64 := (i 1).isLt
  have ht : (i 0).val / 8000 < cfg1.N := by
    show (i 0).val / 8000 < grid1.N
    rw [N_1]; omega
  obtain ⟨-, -, -, -, e20, e21⟩ := block_index1 ⟨(i 0).val / 8000, ht⟩
  have e20' : win1_2.index ⟨(i 0).val / 8000, ht⟩ (0 : Fin 2) = (i 0).val / 8000 := e20
  refine ⟨⟨(i 0).val / 8000, ht⟩, flush1_2 _, ?_⟩
  rw [mem_block1]
  intro a
  match a with
  | ⟨0, _⟩ =>
    show win1_2.index ⟨(i 0).val / 8000, ht⟩ (0 : Fin 2) * 8000 ≤ (i 0).val
      ∧ (i 0).val < win1_2.index ⟨(i 0).val / 8000, ht⟩ (0 : Fin 2) * 8000 + 8000
    omega
  | ⟨1, _⟩ =>
    show win1_2.index ⟨(i 0).val / 8000, ht⟩ (1 : Fin 2) * 64 ≤ (i 1).val
      ∧ (i 1).val < win1_2.index ⟨(i 0).val / 8000, ht⟩ (1 : Fin 2) * 64 + 64
    omega

/-- First round: the result array is the gathered array times the weight column, as the region found them. -/
theorem array1 : (dat1 V c).arrAt 2 cfg1.N = Cert.GraphConv.weighted (V c main_v8) (V c main_v1) := by
  exact (dat1 V c).arrAt_eq_of_cover 2 (Cert.GraphConv.weighted (V c main_v8) (V c main_v1))
    (fun t _ => flushed1_eq V c t) covered1

/-! ## Round 2: the blocks, the cover, the array -/

/-- The block indices at point `t`, decided over the 200 points: all three windows are at block `(t, 0)`. -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The body at an entry `j` of the block: the gathered entry times the weight of `j`'s row. -/
theorem k2_pay1_at (x0 : Vec Ideal S8000x64 .f32) (x1 : Vec Ideal S8000x1 .f32) (j : S8000x64.Idx) :
    k2_pay1 (F := Ideal) x0 x1 j = x0 j * x1 (ix2 (j 0) (0 : Fin 1)) := by
  obtain ⟨p, q, rfl⟩ : ∃ (p : Fin 8000) (q : Fin 64), j = ix2 p q := ⟨j 0, j 1, eq_ix2 j⟩
  exact k2_pay1_apply x0 x1 p q

/-- What point `t` writes back is block `t` of the product array: entry `(p, q)` of the block is entry
    `(8000·t + p, q)` of the gathered array times entry `(8000·t + p, 0)` of the weight column. -/
theorem flushed2_eq (t : Fin cfg2.N) :
    (dat2 V c).flushed 2 t
      = ((cfg2.win 2).blk t).view.read (Elt Ideal) (Cert.GraphConv.weighted (V c main_v19) (V c main_v1)) := by
  show (cfg2.win 2).cut (grid2.coords t) ((dat2 V c).after 2 t) = _
  rw [after2_2]
  unfold out2_2
  rw [View.canon_unit_zero zero_offsets]
  simp only [View.ld_unit_zero (S := S8000x64) zero_offsets, View.ld_unit_zero (S := S8000x1) zero_offsets]
  obtain ⟨e00, e01, e10, e11, e20, e21⟩ := block_index2 t
  funext j
  show k2_pay1 (F := Ideal) (iblk2 V c 0 t) (iblk2 V c 1 t) j
      = Cert.GraphConv.weighted (V c main_v19) (V c main_v1) (((cfg2.win 2).blk t).view.emb j)
  refine (k2_pay1_at _ _ j).trans ?_
  -- the gathered block and the result block sit at the same rows and lanes
  have h0 : ((cfg2.win 0).blk t).view.emb j = ((cfg2.win 2).blk t).view.emb j := by
    funext a; apply Fin.ext
    match a with
    | ⟨0, _⟩ =>
      show win2_0.index t (0 : Fin 2) * 8000 + 1 * (j 0).val = win2_2.index t (0 : Fin 2) * 8000 + 1 * (j 0).val
      omega
    | ⟨1, _⟩ =>
      show win2_0.index t (1 : Fin 2) * 64 + 1 * (j 1).val = win2_2.index t (1 : Fin 2) * 64 + 1 * (j 1).val
      omega
  -- the weight block sits at the same rows, and its one lane is lane 0 of the column
  have h1 : ((cfg2.win 1).blk t).view.emb (ix2 (j 0) (0 : Fin 1))
      = ix2 ((((cfg2.win 2).blk t).view.emb j) 0) (0 : Fin 1) := by
    funext a; apply Fin.ext
    match a with
    | ⟨0, _⟩ =>
      show win2_1.index t (0 : Fin 2) * 8000 + 1 * (j 0).val = win2_2.index t (0 : Fin 2) * 8000 + 1 * (j 0).val
      omega
    | ⟨1, _⟩ =>
      show win2_1.index t (1 : Fin 2) * 1 + 1 * 0 = 0
      omega
  exact weighted_at (V c main_v19) (V c main_v1) (((cfg2.win 0).blk t).view.emb j) (((cfg2.win 2).blk t).view.emb j)
    (((cfg2.win 1).blk t).view.emb (ix2 (j 0) (0 : Fin 1))) h0 h1

/-- An entry of the result array is in point `t`'s block iff each coordinate is in the block's range on its axis. -/
theorem mem_block2 (t : Fin cfg2.N) (i : S1600000x64.Idx) :
    i ∈ ((cfg2.win 2).blk t).view.set
      ↔ ∀ a : Fin 2, win2_2.index t a * S8000x64.size a ≤ (i a).val
          ∧ (i a).val < win2_2.index t a * S8000x64.size a + S8000x64.size a := by
  show i ∈ ((View.whole main_v20).slice (win2_2.rect t)).set ↔ _
  rw [View.set_slice_whole, Rect.mem_set_unit]
  exact Iff.rfl

/-- Every entry of the result array is written back: row `r` by point `r / 8000`. -/
theorem covered2 (i : S1600000x64.Idx) :
    ∃ t : Fin cfg2.N, (cfg2.win 2).flush t = true ∧ i ∈ ((cfg2.win 2).blk t).view.set := by
  have hi0 : (i 0).val < 1600000 := (i 0).isLt
  have hi1 : (i 1).val < 64 := (i 1).isLt
  have ht : (i 0).val / 8000 < cfg2.N := by
    show (i 0).val / 8000 < grid2.N
    rw [N_2]; omega
  obtain ⟨-, -, -, -, e20, e21⟩ := block_index2 ⟨(i 0).val / 8000, ht⟩
  have e20' : win2_2.index ⟨(i 0).val / 8000, ht⟩ (0 : Fin 2) = (i 0).val / 8000 := e20
  refine ⟨⟨(i 0).val / 8000, ht⟩, flush2_2 _, ?_⟩
  rw [mem_block2]
  intro a
  match a with
  | ⟨0, _⟩ =>
    show win2_2.index ⟨(i 0).val / 8000, ht⟩ (0 : Fin 2) * 8000 ≤ (i 0).val
      ∧ (i 0).val < win2_2.index ⟨(i 0).val / 8000, ht⟩ (0 : Fin 2) * 8000 + 8000
    omega
  | ⟨1, _⟩ =>
    show win2_2.index ⟨(i 0).val / 8000, ht⟩ (1 : Fin 2) * 64 ≤ (i 1).val
      ∧ (i 1).val < win2_2.index ⟨(i 0).val / 8000, ht⟩ (1 : Fin 2) * 64 + 64
    omega

/-- Second round. -/
theorem array2 : (dat2 V c).arrAt 2 cfg2.N = Cert.GraphConv.weighted (V c main_v19) (V c main_v1) := by
  exact (dat2 V c).arrAt_eq_of_cover 2 (Cert.GraphConv.weighted (V c main_v19) (V c main_v1))
    (fun t _ => flushed2_eq V c t) covered2

/-! ## Round 3: the blocks, the cover, the array -/

/-- The block indices at point `t`, decided over the 200 points: all three windows are at block `(t, 0)`. -/
theorem block_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The body at an entry `j` of the block: the gathered entry times the weight of `j`'s row. -/
theorem k3_pay1_at (x0 : Vec Ideal S8000x64 .f32) (x1 : Vec Ideal S8000x1 .f32) (j : S8000x64.Idx) :
    k3_pay1 (F := Ideal) x0 x1 j = x0 j * x1 (ix2 (j 0) (0 : Fin 1)) := by
  obtain ⟨p, q, rfl⟩ : ∃ (p : Fin 8000) (q : Fin 64), j = ix2 p q := ⟨j 0, j 1, eq_ix2 j⟩
  exact k3_pay1_apply x0 x1 p q

/-- What point `t` writes back is block `t` of the product array: entry `(p, q)` of the block is entry
    `(8000·t + p, q)` of the gathered array times entry `(8000·t + p, 0)` of the weight column. -/
theorem flushed3_eq (t : Fin cfg3.N) :
    (dat3 V c).flushed 2 t
      = ((cfg3.win 2).blk t).view.read (Elt Ideal) (Cert.GraphConv.weighted (V c main_v30) (V c main_v1)) := by
  show (cfg3.win 2).cut (grid3.coords t) ((dat3 V c).after 2 t) = _
  rw [after3_2]
  unfold out3_2
  rw [View.canon_unit_zero zero_offsets]
  simp only [View.ld_unit_zero (S := S8000x64) zero_offsets, View.ld_unit_zero (S := S8000x1) zero_offsets]
  obtain ⟨e00, e01, e10, e11, e20, e21⟩ := block_index3 t
  funext j
  show k3_pay1 (F := Ideal) (iblk3 V c 0 t) (iblk3 V c 1 t) j
      = Cert.GraphConv.weighted (V c main_v30) (V c main_v1) (((cfg3.win 2).blk t).view.emb j)
  refine (k3_pay1_at _ _ j).trans ?_
  -- the gathered block and the result block sit at the same rows and lanes
  have h0 : ((cfg3.win 0).blk t).view.emb j = ((cfg3.win 2).blk t).view.emb j := by
    funext a; apply Fin.ext
    match a with
    | ⟨0, _⟩ =>
      show win3_0.index t (0 : Fin 2) * 8000 + 1 * (j 0).val = win3_2.index t (0 : Fin 2) * 8000 + 1 * (j 0).val
      omega
    | ⟨1, _⟩ =>
      show win3_0.index t (1 : Fin 2) * 64 + 1 * (j 1).val = win3_2.index t (1 : Fin 2) * 64 + 1 * (j 1).val
      omega
  -- the weight block sits at the same rows, and its one lane is lane 0 of the column
  have h1 : ((cfg3.win 1).blk t).view.emb (ix2 (j 0) (0 : Fin 1))
      = ix2 ((((cfg3.win 2).blk t).view.emb j) 0) (0 : Fin 1) := by
    funext a; apply Fin.ext
    match a with
    | ⟨0, _⟩ =>
      show win3_1.index t (0 : Fin 2) * 8000 + 1 * (j 0).val = win3_2.index t (0 : Fin 2) * 8000 + 1 * (j 0).val
      omega
    | ⟨1, _⟩ =>
      show win3_1.index t (1 : Fin 2) * 1 + 1 * 0 = 0
      omega
  exact weighted_at (V c main_v30) (V c main_v1) (((cfg3.win 0).blk t).view.emb j) (((cfg3.win 2).blk t).view.emb j)
    (((cfg3.win 1).blk t).view.emb (ix2 (j 0) (0 : Fin 1))) h0 h1

/-- An entry of the result array is in point `t`'s block iff each coordinate is in the block's range on its axis. -/
theorem mem_block3 (t : Fin cfg3.N) (i : S1600000x64.Idx) :
    i ∈ ((cfg3.win 2).blk t).view.set
      ↔ ∀ a : Fin 2, win3_2.index t a * S8000x64.size a ≤ (i a).val
          ∧ (i a).val < win3_2.index t a * S8000x64.size a + S8000x64.size a := by
  show i ∈ ((View.whole main_v31).slice (win3_2.rect t)).set ↔ _
  rw [View.set_slice_whole, Rect.mem_set_unit]
  exact Iff.rfl

/-- Every entry of the result array is written back: row `r` by point `r / 8000`. -/
theorem covered3 (i : S1600000x64.Idx) :
    ∃ t : Fin cfg3.N, (cfg3.win 2).flush t = true ∧ i ∈ ((cfg3.win 2).blk t).view.set := by
  have hi0 : (i 0).val < 1600000 := (i 0).isLt
  have hi1 : (i 1).val < 64 := (i 1).isLt
  have ht : (i 0).val / 8000 < cfg3.N := by
    show (i 0).val / 8000 < grid3.N
    rw [N_3]; omega
  obtain ⟨-, -, -, -, e20, e21⟩ := block_index3 ⟨(i 0).val / 8000, ht⟩
  have e20' : win3_2.index ⟨(i 0).val / 8000, ht⟩ (0 : Fin 2) = (i 0).val / 8000 := e20
  refine ⟨⟨(i 0).val / 8000, ht⟩, flush3_2 _, ?_⟩
  rw [mem_block3]
  intro a
  match a with
  | ⟨0, _⟩ =>
    show win3_2.index ⟨(i 0).val / 8000, ht⟩ (0 : Fin 2) * 8000 ≤ (i 0).val
      ∧ (i 0).val < win3_2.index ⟨(i 0).val / 8000, ht⟩ (0 : Fin 2) * 8000 + 8000
    omega
  | ⟨1, _⟩ =>
    show win3_2.index ⟨(i 0).val / 8000, ht⟩ (1 : Fin 2) * 64 ≤ (i 1).val
      ∧ (i 1).val < win3_2.index ⟨(i 0).val / 8000, ht⟩ (1 : Fin 2) * 64 + 64
    omega

/-- Third round. -/
theorem array3 : (dat3 V c).arrAt 2 cfg3.N = Cert.GraphConv.weighted (V c main_v30) (V c main_v1) := by
  exact (dat3 V c).arrAt_eq_of_cover 2 (Cert.GraphConv.weighted (V c main_v30) (V c main_v1))
    (fun t _ => flushed3_eq V c t) covered3

end Cert.KernelIdeal.ProductRegion

end
-- ==== Proof.Rounds.lean ====
/-
  One round of weighted neighbour sums, as one function of the arrays.

  From node values `h : [100000, 64]`, source indices `s`, destination indices `d` (1600000 edges each) and the column
  of edge weights, a round gathers row `s(e)` of `h` for every edge `e` (a negative source index counts from the end:
  100000 is added to it once), multiplies it by the edge's weight, and adds the product into row `d(e)` of an array of
  zeros.  Both programs are three rounds applied to the dense layer; they differ only in how the products are computed.
-/
import proofs.«116419_j90022514524541_2_alg».proof.Proof.Gen.KernelIdeal
import proofs.«116419_j90022514524541_2_alg».proof.Proof.Spec

noncomputable section

namespace Cert.KernelIdeal.Rounds

open Cert.KernelIdeal Cert.KernelIdeal.Facts₀ Idealize.ShloMosaic

/-- The source indices as the gather takes them: negative ones moved up by the number of nodes, the vector as a column. -/
def sourceColumn (s : (⟨S1600000, .i32⟩ : BufTy).Contents (Elt Ideal)) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- One round: gather the source rows, weight them, add them into the destination rows of a zero array. -/
def round (h : (⟨S100000x64, .f32⟩ : BufTy).Contents (Elt Ideal)) (s d : (⟨S1600000, .i32⟩ : BufTy).Contents (Elt Ideal))
    (col : (⟨S1600000x1, .f32⟩ : BufTy).Contents (Elt Ideal)) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Cert.GraphConv.weighted (Host.gather gather_S100000x64_S1600000x1_S1600000x64_1_0_n_n_0_1_164 h (sourceColumn s)) col)

/-- The edge weights as a column. -/
def weightColumn (w : (⟨S1600000, .f32⟩ : BufTy).Contents (Elt Ideal)) : (⟨S1600000x1, .f32⟩ : BufTy).Contents (Elt Ideal) :=
  shapeCast S1600000x1 w shapeCasts_S1600000_S1600000x1

/-- The whole computation: the dense layer, then three rounds over the same edges. -/
def result (x : (⟨S100000x256, .f32⟩ : BufTy).Contents (Elt Ideal)) (W : (⟨S64x256, .f32⟩ : BufTy).Contents (Elt Ideal))
    (b : (⟨S64, .f32⟩ : BufTy).Contents (Elt Ideal)) (s d : (⟨S1600000, .i32⟩ : BufTy).Contents (Elt Ideal))
    (w : (⟨S1600000, .f32⟩ : BufTy).Contents (Elt Ideal)) : (⟨S100000x64, .f32⟩ : BufTy).Contents (Elt Ideal) :=
  round (round (round (Cert.GraphConv.linear x W b) s d (weightColumn w)) s d (weightColumn w)) s d (weightColumn w)

end Cert.KernelIdeal.Rounds

end
-- ==== Proof.KernelValue.lean ====
/-
  The idealized kernel's result as a function of its arguments.

  The buffer contents at the boundaries between the program's segments are a fold from the launch memory.  Walking
  it forward: the first region leaves the dense layer in its result array; the first host stretch turns the edge weights
  into a column, normalises the source indices and gathers the source rows; each later region leaves the gathered rows
  times the weight column; each later host stretch adds those products into the destination rows of a zero array and,
  except the last, gathers again.  No segment writes an argument array, and the weight column is written once and only
  read afterwards, so at every boundary they are what they were.  After the last stretch the result buffer holds three
  rounds applied to the dense layer.
-/
import proofs.«116419_j90022514524541_2_alg».proof.Proof.Gen.KernelIdeal.Frame
import proofs.«116419_j90022514524541_2_alg».proof.Proof.LinearArray
import proofs.«116419_j90022514524541_2_alg».proof.Proof.ProductArray
import proofs.«116419_j90022514524541_2_alg».proof.Proof.Rounds
import Idealize.ShloMosaic.Lib.StableHlo.Run

set_option maxRecDepth 16384

noncomputable section

namespace Cert.KernelIdeal.Boundaries

open Cert.KernelIdeal Cert.KernelIdeal.Gen Cert.KernelIdeal.Rounds Cert.GraphConv
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## After the first region -/

/-- The first region's result array is the dense layer of the launch contents. -/
theorem dense : W1 m ρ c (Proc.devRef .tc main_v0)
    = linear (m ((c : Thread nD τ).loc main_arg0)) (m ((c : Thread nD τ).loc main_arg1)) (m ((c : Thread nD τ).loc main_arg2)) :=
  (W1_arr m ρ c 3).trans (LinearRegion.array (V0 m ρ) c)

theorem src1 : W1 m ρ c (Proc.devRef .tc main_arg3) = m ((c : Thread nD τ).loc main_arg3) := W1_of_ne m ρ c main_arg3 (by decide)
theorem dst1 : W1 m ρ c (Proc.devRef .tc main_arg4) = m ((c : Thread nD τ).loc main_arg4) := W1_of_ne m ρ c main_arg4 (by decide)
theorem wts1 : W1 m ρ c (Proc.devRef .tc main_arg5) = m ((c : Thread nD τ).loc main_arg5) := W1_of_ne m ρ c main_arg5 (by decide)

/-! ## After the first host stretch -/

/-- The rows of the dense layer at the normalised source indices. -/
theorem gathered1 : W2 m ρ c (Proc.devRef .tc main_v8)
    = Host.gather gather_S100000x64_S1600000x1_S1600000x64_1_0_n_n_0_1_164
        (linear (m ((c : Thread nD τ).loc main_arg0)) (m ((c : Thread nD τ).loc main_arg1)) (m ((c : Thread nD τ).loc main_arg2)))
        (sourceColumn (m ((c : Thread nD τ).loc main_arg3))) := by
  show StableHlo.after hostOps1 (W1 m ρ c) (Proc.devRef .tc main_v8) = _
  dsimp only [hostOps1]
  after_results
  rw [dense m ρ c, src1 m ρ c]
  rfl

/-- The edge weights as a column. -/
theorem column2 : W2 m ρ c (Proc.devRef .tc main_v1) = weightColumn (m ((c : Thread nD τ).loc main_arg5)) := by
  show StableHlo.after hostOps1 (W1 m ρ c) (Proc.devRef .tc main_v1) = _
  dsimp only [hostOps1]
  after_results
  rw [wts1 m ρ c]
  rfl

theorem src2 : W2 m ρ c (Proc.devRef .tc main_arg3) = m ((c : Thread nD τ).loc main_arg3) := by
  show StableHlo.after hostOps1 (W1 m ρ c) (Proc.devRef .tc main_arg3) = _
  dsimp only [hostOps1]
  after_results
  exact src1 m ρ c
theorem dst2 : W2 m ρ c (Proc.devRef .tc main_arg4) = m ((c : Thread nD τ).loc main_arg4) := by
  show StableHlo.after hostOps1 (W1 m ρ c) (Proc.devRef .tc main_arg4) = _
  dsimp only [hostOps1]
  after_results
  exact dst1 m ρ c

/-! ## After the first edge-message region -/

/-- The gathered rows times the weight column. -/
theorem messages1 : W3 m ρ c (Proc.devRef .tc main_v9)
    = weighted (Host.gather gather_S100000x64_S1600000x1_S1600000x64_1_0_n_n_0_1_164 (linear (m ((c : Thread nD τ).loc main_arg0)) (m ((c : Thread nD τ).loc main_arg1)) (m ((c : Thread nD τ).loc main_arg2))) (sourceColumn (m ((c : Thread nD τ).loc main_arg3)))) (weightColumn (m ((c : Thread nD τ).loc main_arg5))) := by
  rw [show W3 m ρ c (Proc.devRef .tc main_v9) = (dat1 (V2 m ρ) c).arrAt 2 cfg1.N from W3_arr m ρ c 2,
    ProductRegion.array1 (V2 m ρ) c]
  show weighted (W2 m ρ c (Proc.devRef .tc main_v8)) (W2 m ρ c (Proc.devRef .tc main_v1)) = _
  rw [gathered1 m ρ c, column2 m ρ c]

/-- The weight column is an input of the region: it is read, never written back. -/
theorem column3 : W3 m ρ c (Proc.devRef .tc main_v1) = (weightColumn (m ((c : Thread nD τ).loc main_arg5))) :=
  ((W3_arr m ρ c 1).trans (((dat1 (V2 m ρ) c).arrAt_in 1 rfl _).trans (A_eq1 (V2 m ρ) c 1))).trans (column2 m ρ c)

theorem src3 : W3 m ρ c (Proc.devRef .tc main_arg3) = (m ((c : Thread nD τ).loc main_arg3)) :=
  (W3_of_ne m ρ c main_arg3 (by decide)).trans (src2 m ρ c)
theorem dst3 : W3 m ρ c (Proc.devRef .tc main_arg4) = (m ((c : Thread nD τ).loc main_arg4)) :=
  (W3_of_ne m ρ c main_arg4 (by decide)).trans (dst2 m ρ c)

/-! ## After the second host stretch -/

/-- The products added into the destination rows, gathered again at the source indices. -/
theorem gathered2 : W4 m ρ c (Proc.devRef .tc main_v19)
    = Host.gather gather_S100000x64_S1600000x1_S1600000x64_1_0_n_n_0_1_164 (round (linear (m ((c : Thread nD τ).loc main_arg0)) (m ((c : Thread nD τ).loc main_arg1)) (m ((c : Thread nD τ).loc main_arg2))) (m ((c : Thread nD τ).loc main_arg3)) (m ((c : Thread nD τ).loc main_arg4)) (weightColumn (m ((c : Thread nD τ).loc main_arg5)))) (sourceColumn (m ((c : Thread nD τ).loc main_arg3))) := by
  show StableHlo.after hostOps2 (W3 m ρ c) (Proc.devRef .tc main_v19) = _
  dsimp only [hostOps2]
  after_results
  rw [messages1 m ρ c, src3 m ρ c, dst3 m ρ c]
  rfl

theorem column4 : W4 m ρ c (Proc.devRef .tc main_v1) = (weightColumn (m ((c : Thread nD τ).loc main_arg5))) := by
  show StableHlo.after hostOps2 (W3 m ρ c) (Proc.devRef .tc main_v1) = _
  dsimp only [hostOps2]
  after_results
  exact column3 m ρ c
theorem src4 : W4 m ρ c (Proc.devRef .tc main_arg3) = (m ((c : Thread nD τ).loc main_arg3)) := by
  show StableHlo.after hostOps2 (W3 m ρ c) (Proc.devRef .tc main_arg3) = _
  dsimp only [hostOps2]
  after_results
  exact src3 m ρ c
theorem dst4 : W4 m ρ c (Proc.devRef .tc main_arg4) = (m ((c : Thread nD τ).loc main_arg4)) := by
  show StableHlo.after hostOps2 (W3 m ρ c) (Proc.devRef .tc main_arg4) = _
  dsimp only [hostOps2]
  after_results
  exact dst3 m ρ c

/-! ## After the second edge-message region -/

/-- The gathered rows times the weight column. -/
theorem messages2 : W5 m ρ c (Proc.devRef .tc main_v20)
    = weighted (Host.gather gather_S100000x64_S1600000x1_S1600000x64_1_0_n_n_0_1_164 (round (linear (m ((c : Thread nD τ).loc main_arg0)) (m ((c : Thread nD τ).loc main_arg1)) (m ((c : Thread nD τ).loc main_arg2))) (m ((c : Thread nD τ).loc main_arg3)) (m ((c : Thread nD τ).loc main_arg4)) (weightColumn (m ((c : Thread nD τ).loc main_arg5)))) (sourceColumn (m ((c : Thread nD τ).loc main_arg3)))) (weightColumn (m ((c : Thread nD τ).loc main_arg5))) := by
  rw [show W5 m ρ c (Proc.devRef .tc main_v20) = (dat2 (V4 m ρ) c).arrAt 2 cfg2.N from W5_arr m ρ c 2,
    ProductRegion.array2 (V4 m ρ) c]
  show weighted (W4 m ρ c (Proc.devRef .tc main_v19)) (W4 m ρ c (Proc.devRef .tc main_v1)) = _
  rw [gathered2 m ρ c, column4 m ρ c]

/-- The weight column is an input of the region: it is read, never written back. -/
theorem column5 : W5 m ρ c (Proc.devRef .tc main_v1) = (weightColumn (m ((c : Thread nD τ).loc main_arg5))) :=
  ((W5_arr m ρ c 1).trans (((dat2 (V4 m ρ) c).arrAt_in 1 rfl _).trans (A_eq2 (V4 m ρ) c 1))).trans (column4 m ρ c)

theorem src5 : W5 m ρ c (Proc.devRef .tc main_arg3) = (m ((c : Thread nD τ).loc main_arg3)) :=
  (W5_of_ne m ρ c main_arg3 (by decide)).trans (src4 m ρ c)
theorem dst5 : W5 m ρ c (Proc.devRef .tc main_arg4) = (m ((c : Thread nD τ).loc main_arg4)) :=
  (W5_of_ne m ρ c main_arg4 (by decide)).trans (dst4 m ρ c)

/-! ## After the third host stretch -/

/-- The products added into the destination rows, gathered again at the source indices. -/
theorem gathered3 : W6 m ρ c (Proc.devRef .tc main_v30)
    = Host.gather gather_S100000x64_S1600000x1_S1600000x64_1_0_n_n_0_1_164 (round (round (linear (m ((c : Thread nD τ).loc main_arg0)) (m ((c : Thread nD τ).loc main_arg1)) (m ((c : Thread nD τ).loc main_arg2))) (m ((c : Thread nD τ).loc main_arg3)) (m ((c : Thread nD τ).loc main_arg4)) (weightColumn (m ((c : Thread nD τ).loc main_arg5)))) (m ((c : Thread nD τ).loc main_arg3)) (m ((c : Thread nD τ).loc main_arg4)) (weightColumn (m ((c : Thread nD τ).loc main_arg5)))) (sourceColumn (m ((c : Thread nD τ).loc main_arg3))) := by
  show StableHlo.after hostOps3 (W5 m ρ c) (Proc.devRef .tc main_v30) = _
  dsimp only [hostOps3]
  after_results
  rw [messages2 m ρ c, src5 m ρ c, dst5 m ρ c]
  rfl

theorem column6 : W6 m ρ c (Proc.devRef .tc main_v1) = (weightColumn (m ((c : Thread nD τ).loc main_arg5))) := by
  show StableHlo.after hostOps3 (W5 m ρ c) (Proc.devRef .tc main_v1) = _
  dsimp only [hostOps3]
  after_results
  exact column5 m ρ c
theorem src6 : W6 m ρ c (Proc.devRef .tc main_arg3) = (m ((c : Thread nD τ).loc main_arg3)) := by
  show StableHlo.after hostOps3 (W5 m ρ c) (Proc.devRef .tc main_arg3) = _
  dsimp only [hostOps3]
  after_results
  exact src5 m ρ c
theorem dst6 : W6 m ρ c (Proc.devRef .tc main_arg4) = (m ((c : Thread nD τ).loc main_arg4)) := by
  show StableHlo.after hostOps3 (W5 m ρ c) (Proc.devRef .tc main_arg4) = _
  dsimp only [hostOps3]
  after_results
  exact dst5 m ρ c

/-! ## After the third edge-message region -/

/-- The gathered rows times the weight column. -/
theorem messages3 : W7 m ρ c (Proc.devRef .tc main_v31)
    = weighted (Host.gather gather_S100000x64_S1600000x1_S1600000x64_1_0_n_n_0_1_164 (round (round (linear (m ((c : Thread nD τ).loc main_arg0)) (m ((c : Thread nD τ).loc main_arg1)) (m ((c : Thread nD τ).loc main_arg2))) (m ((c : Thread nD τ).loc main_arg3)) (m ((c : Thread nD τ).loc main_arg4)) (weightColumn (m ((c : Thread nD τ).loc main_arg5)))) (m ((c : Thread nD τ).loc main_arg3)) (m ((c : Thread nD τ).loc main_arg4)) (weightColumn (m ((c : Thread nD τ).loc main_arg5)))) (sourceColumn (m ((c : Thread nD τ).loc main_arg3)))) (weightColumn (m ((c : Thread nD τ).loc main_arg5))) := by
  rw [show W7 m ρ c (Proc.devRef .tc main_v31) = (dat3 (V6 m ρ) c).arrAt 2 cfg3.N from W7_arr m ρ c 2,
    ProductRegion.array3 (V6 m ρ) c]
  show weighted (W6 m ρ c (Proc.devRef .tc main_v30)) (W6 m ρ c (Proc.devRef .tc main_v1)) = _
  rw [gathered3 m ρ c, column6 m ρ c]

/-- The weight column is an input of the region: it is read, never written back. -/
theorem column7 : W7 m ρ c (Proc.devRef .tc main_v1) = (weightColumn (m ((c : Thread nD τ).loc main_arg5))) :=
  ((W7_arr m ρ c 1).trans (((dat3 (V6 m ρ) c).arrAt_in 1 rfl _).trans (A_eq3 (V6 m ρ) c 1))).trans (column6 m ρ c)

theorem src7 : W7 m ρ c (Proc.devRef .tc main_arg3) = (m ((c : Thread nD τ).loc main_arg3)) :=
  (W7_of_ne m ρ c main_arg3 (by decide)).trans (src6 m ρ c)
theorem dst7 : W7 m ρ c (Proc.devRef .tc main_arg4) = (m ((c : Thread nD τ).loc main_arg4)) :=
  (W7_of_ne m ρ c main_arg4 (by decide)).trans (dst6 m ρ c)

/-! ## After the last host stretch -/

/-- The result buffer holds three rounds applied to the dense layer of the launch contents. -/
theorem result_eq : W8 m ρ c (Proc.devRef .tc main_v34)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps4 (W7 m ρ c) (Proc.devRef .tc main_v34) = _
  dsimp only [hostOps4]
  after_results
  rw [messages3 m ρ c, dst7 m ρ c]
  rfl

end Cert.KernelIdeal.Boundaries

end
-- ==== Proof.RefValue.lean ====
/-
  The idealized reference's result as the same function of its arguments.

  The reference computes the dense layer with a general dot product of the node features and the transposed weights
  plus the bias broadcast along the rows, and each round's products by broadcasting the edge weights along the
  columns and multiplying whole arrays.  Index by index the dense layer is  ∑ₖ x(i, k) · W(j, k) + b(j)  — the transposed
  weights at (k, j) are the weights at (j, k) —, and the weight broadcast along row `e` is the weight column's entry
  of row `e`.  The gathers, the scatter-adds and the index normalisation are the round's own operations.
-/
import proofs.«116419_j90022514524541_2_alg».proof.Proof.Gen.ReferenceIdeal.Read
import proofs.«116419_j90022514524541_2_alg».proof.Proof.Rounds
import proofs.«116419_j90022514524541_2_alg».proof.Proof.LibKeepdims

open scoped BigOperators

noncomputable section

namespace Cert.ReferenceIdeal.Rounds

open Cert.ReferenceIdeal Cert.ReferenceIdeal.Gen Cert.ReferenceIdeal.Read Cert.GraphConv
open Idealize.ShloMosaic Idealize.ShloMosaic.ValueIdx
open Cert.KernelIdeal.Rounds (round weightColumn sourceColumn result)

/-- The reference's dense layer, index by index. -/
theorem dense_eq (x0 : (⟨S100000x256, .f32⟩ : BufTy).Contents (Elt Ideal)) (x1 : (⟨S64x256, .f32⟩ : BufTy).Contents (Elt Ideal))
    (x2 : (⟨S64, .f32⟩ : BufTy).Contents (Elt Ideal)) : val_main_v4 (F := Ideal) x0 x1 x2 = linear x0 x1 x2 := by
  funext i
  obtain ⟨p, q, rfl⟩ : ∃ (p : Fin 100000) (q : Fin 64), i = ix2 p q := ⟨i 0, i 1, eq_ix2 i⟩
  rw [val_main_v4_apply, val_main_v1_apply, val_main_v3_apply, val_main_v2_apply]
  simp only [val_main_v0_apply]
  have el : ∀ k : Fin 256, lidx_main_v1 (ix2 p q) k = ix2 p k := fun k => funext fun a => by
    match a with
    | ⟨0, _⟩ => rfl
    | ⟨1, _⟩ => rfl
  have er : ∀ k : Fin 256, idx_main_v0 (ridx_main_v1 (ix2 p q) k) = ix2 q k := fun k => funext fun a => by
    match a with
    | ⟨0, _⟩ => rfl
    | ⟨1, _⟩ => rfl
  have eb : idx_main_v2 (idx_main_v3 (ix2 p q)) = ix1 q := funext fun a => by
    match a with
    | ⟨0, _⟩ => rfl
  simp only [el, er, eb]
  rfl

/-- The weights broadcast along the columns, times an array, is that array weighted by the weight column. -/
theorem product_eq (g : FVec Ideal S1600000x64 .f32) (x5 : (⟨S1600000, .f32⟩ : BufTy).Contents (Elt Ideal)) :
    mulf g (val_main_v13 (F := Ideal) x5) = weighted g (weightColumn x5) := by
  funext i
  obtain ⟨e, j, rfl⟩ : ∃ (e : Fin 1600000) (j : Fin 64), i = ix2 e j := ⟨i 0, i 1, eq_ix2 i⟩
  show g (ix2 e j) * val_main_v13 (F := Ideal) x5 (ix2 e j) = g (ix2 e j) * weightColumn x5 (ix2 e (0 : Fin 1))
  rw [val_main_v13_apply, val_main_v12_apply]
  unfold weightColumn
  rw [Keepdims.shapeCast_a_a1_apply]
  refine congrArg (fun z => g (ix2 e j) * x5 z) (funext fun a => ?_)
  match a with
  | ⟨0, _⟩ => rfl

/-- The first round, in the reference's spelling. -/
theorem round_first (x0 : (⟨S100000x256, .f32⟩ : BufTy).Contents (Elt Ideal)) (x1 : (⟨S64x256, .f32⟩ : BufTy).Contents (Elt Ideal))
    (x2 : (⟨S64, .f32⟩ : BufTy).Contents (Elt Ideal)) (x3 x4 : (⟨S1600000, .i32⟩ : BufTy).Contents (Elt Ideal))
    (x5 : (⟨S1600000, .f32⟩ : BufTy).Contents (Elt Ideal)) :
    val_main_v17 (F := Ideal) x0 x1 x2 x3 x4 x5 = round (linear x0 x1 x2) x3 x4 (weightColumn x5) := by
  unfold val_main_v17 val_main_v14 val_main_v11
  rw [product_eq, dense_eq]
  rfl

/-- The second round. -/
theorem round_second (x0 : (⟨S100000x256, .f32⟩ : BufTy).Contents (Elt Ideal)) (x1 : (⟨S64x256, .f32⟩ : BufTy).Contents (Elt Ideal))
    (x2 : (⟨S64, .f32⟩ : BufTy).Contents (Elt Ideal)) (x3 x4 : (⟨S1600000, .i32⟩ : BufTy).Contents (Elt Ideal))
    (x5 : (⟨S1600000, .f32⟩ : BufTy).Contents (Elt Ideal)) :
    val_main_v30 (F := Ideal) x0 x1 x2 x3 x4 x5 = round (val_main_v17 (F := Ideal) x0 x1 x2 x3 x4 x5) x3 x4 (weightColumn x5) := by
  unfold val_main_v30 val_main_v27 val_main_v24
  rw [show val_main_v26 (F := Ideal) x5 = val_main_v13 (F := Ideal) x5 from rfl, product_eq]
  rfl

/-- The third round. -/
theorem round_third (x0 : (⟨S100000x256, .f32⟩ : BufTy).Contents (Elt Ideal)) (x1 : (⟨S64x256, .f32⟩ : BufTy).Contents (Elt Ideal))
    (x2 : (⟨S64, .f32⟩ : BufTy).Contents (Elt Ideal)) (x3 x4 : (⟨S1600000, .i32⟩ : BufTy).Contents (Elt Ideal))
    (x5 : (⟨S1600000, .f32⟩ : BufTy).Contents (Elt Ideal)) :
    val_main_v43 (F := Ideal) x0 x1 x2 x3 x4 x5 = round (val_main_v30 (F := Ideal) x0 x1 x2 x3 x4 x5) x3 x4 (weightColumn x5) := by
  unfold val_main_v43 val_main_v40 val_main_v37
  rw [show val_main_v39 (F := Ideal) x5 = val_main_v13 (F := Ideal) x5 from rfl, product_eq]
  rfl

/-- The reference's result is the dense layer followed by three rounds. -/
theorem result_eq (x0 : (⟨S100000x256, .f32⟩ : BufTy).Contents (Elt Ideal)) (x1 : (⟨S64x256, .f32⟩ : BufTy).Contents (Elt Ideal))
    (x2 : (⟨S64, .f32⟩ : BufTy).Contents (Elt Ideal)) (x3 x4 : (⟨S1600000, .i32⟩ : BufTy).Contents (Elt Ideal))
    (x5 : (⟨S1600000, .f32⟩ : BufTy).Contents (Elt Ideal)) :
    val_main_v43 (F := Ideal) x0 x1 x2 x3 x4 x5 = result x0 x1 x2 x3 x4 x5 := by
  rw [round_third, round_second, round_first]
  rfl

end Cert.ReferenceIdeal.Rounds

end
-- ==== Proof.lean ====
/-
  A graph convolution: a linear layer followed by three rounds of weighted neighbour sums.

  Both programs compute, for node features `x : [100000, 256]`, weights `W : [64, 256]`, bias `b : [64]` and an
  edge list (source, destination, weight) of 1600000 edges,
      h₀(i, j) = ∑ₖ x(i, k) · W(j, k) + b(j),
      hₙ₊₁     = scatter-add over the edges e of  hₙ(src e, ·) · w(e)  into row  dst e,      n = 0, 1, 2,
  and return h₃.  The kernel computes h₀ block by block (5000 rows at a time, the product on the matrix unit into a
  zero accumulator) and each round's products  hₙ(src e, j) · w(e)  block by block (8000 edges at a time, the weight
  column copied along the row); the reference computes both with whole-array operations.  The gathers, the
  scatter-adds and the normalisation of negative source indices are the same operations on both sides.  At the ideal
  values a change of float format is the identity, so the two linear layers are one function index by index, and so
  are the two products; everything else is the same operation applied to equal operands.
-/
import proofs.«116419_j90022514524541_2_alg».proof.Defs
import proofs.«116419_j90022514524541_2_alg».proof.Proof.Gen.Kernel
import proofs.«116419_j90022514524541_2_alg».proof.Proof.Gen.Kernel.Frame
import proofs.«116419_j90022514524541_2_alg».proof.Proof.Gen.KernelIdeal
import proofs.«116419_j90022514524541_2_alg».proof.Proof.Gen.KernelIdeal.Frame
import proofs.«116419_j90022514524541_2_alg».proof.Proof.Gen.ReferenceIdeal
import proofs.«116419_j90022514524541_2_alg».proof.Proof.Gen.ReferenceIdeal.Run
import proofs.«116419_j90022514524541_2_alg».proof.Proof.Gen.ReferenceIdeal.Read
import proofs.«116419_j90022514524541_2_alg».proof.Proof.Gen.Pre_finite_inputs
import proofs.«116419_j90022514524541_2_alg».proof.Proof.KernelRun
import proofs.«116419_j90022514524541_2_alg».proof.Proof.KernelValue
import proofs.«116419_j90022514524541_2_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Nothing was rewritten when the kernel was idealized: the idealization is the program's own text read at the ideal values. -/
theorem preserves : Cert.preserves_Kernel_KernelIdeal := trivial

/-- From memories agreeing on the six arguments, the idealized kernel ends with its result buffer at three rounds applied
    to the dense layer of its arguments (the run with the result named, then the walk through the segment boundaries), and
    the idealized reference ends at the same function of the same arguments (its run read back, then the reference's
    operations identified with the round's). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Rounds.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Boundaries.result_eq m ρ c), (h c).2⟩)
      (Cert.KernelIdeal.Named.run (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v43_eq, Cert.ReferenceIdeal.Rounds.result_eq]
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
